-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x2048x1024 .f32) (main_arg1 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x2048, .f32⟩
  | .local _ .vmem, ⟨8, _⟩ => ⟨S1x256x2048, .f32⟩
  | .local _ .vmem, ⟨9, _⟩ => ⟨S2048x1024, .bf16⟩
  | .local _ .vmem, ⟨10, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x2048x1024.size a
  hwx0_3 : ∀ i : grid0.Coords, EltTy.bits .f32 = 32 ∨ (Rect.block (s := S8x2048x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.RefFrame.lean ====
/-
  The reference program is a straight line of host operations: every weakly fair execution of it ends, without a
  fault, with each buffer at the operations' composed term of the arguments, and the arguments themselves untouched.
  The frame claim of the reference is that run with the results dropped.
-/
import proofs.«106206_j36361193128336_2_alg».proof.Defs
import proofs.«106206_j36361193128336_2_alg».proof.Proof.Gen.ReferenceIdeal.Read
import proofs.«106206_j36361193128336_2_alg».proof.Proof.Gen.Pre_finite_inputs

noncomputable section

namespace Cert.Proof.RefClaims

open Idealize.ShloMosaic Idealize.ShloMosaic.TcCoe Idealize.SL.Sem

/-- The reference runs to the end and leaves its two arguments as they were. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefClaims

end
-- ==== Proof.K.Conds.lean ====
/-
  The two branches of the kernel body are taken by the position in the grid alone. The grid is 8 batches by 8
  query tiles, walked batch by batch: point t is batch t / 8, tile t % 8. The weight matrix is converted and cached
  at the very first point (batch 0, tile 0), the batch's key/value slab at the first tile of each batch.
-/
import proofs.«106206_j36361193128336_2_alg».proof.Proof.Gen.Kernel.Launch
import proofs.«106206_j36361193128336_2_alg».proof.Proof.Gen.Kernel.Skeleton
import proofs.«106206_j36361193128336_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- "First point of the whole grid": batch 0 and tile 0, as the body's scalar chain spells it. -/
abbrev condW (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at point 0 only. -/
theorem hcondW : ∀ t : Fin cfg0.N, condW (grid0.coords t) ↔ t.val % 64 = 0 :=
  (by decide +kernel : ∀ t : Fin grid0.N, condW (grid0.coords t) ↔ t.val % 64 = 0)

/-- "First tile of a batch": tile 0, as the body's scalar chain spells it. -/
abbrev condX (i : grid0.Coords) : Prop :=
  Scalar.cmpi .ne (Scalar.extui (Scalar.cmpi .eq (BitVec.ofNat 32 (i 1).val) 0#32)) 0#32 = 1#1
/-- It holds at the points that are multiples of 8. -/
theorem hcondX : ∀ t : Fin cfg0.N, condX (grid0.coords t) ↔ t.val % 8 = 0 :=
  (by decide +kernel : ∀ t : Fin grid0.N, condX (grid0.coords t) ↔ t.val % 8 = 0)

/-- No window is ever idle: every point loads its query tile and stores both results. -/
theorem live : ∀ (w : Fin cfg0.W) (t : Fin cfg0.N), cfg0.idle w (grid0.coords t) = false := by decide +kernel

end Cert.Kernel.Hand

end
-- ==== Proof.K.Dats.lean ====
/-
  The proof data of the one pipelined call. Grid point t is batch t / 8, query tile t % 8.
  Inputs: the query tile x[b, 256 q .. 256 q + 255, :], the batch slab x[b, :, :] (the same array through a second
  window, so the two windows hold the array at half the full share each), and the weight matrix W. Each input's
  staging buffer holds its block of the array at every point, fetched there or not.
  Carried between points: the converted weight matrix (written once, at the first point, from W's block) and the
  converted batch slab (written at the first tile of each batch from the slab's block there).
  Outputs at point t: the context tile and the attention tile, as the body's payloads of the query tile and the
  two carried buffers.
-/
import proofs.«106206_j36361193128336_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffer contents when the call is entered: the launch memory (nothing runs before the call). -/
abbrev V (c : Dev nD) (b : Ref sig .tc) : Buf (Elt F) ((c : Thread nD τ).loc b) := m ((c : Thread nD τ).loc b)

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem N64 : cfg0.N = 64 := N_0

/-- The first point of the grid. -/
def t0 : Fin cfg0.N := ⟨0, lt_of_lt_of_eq (by omega : 0 < 64) N64.symm⟩
/-- The first point of point t's batch. -/
def base (t : Fin cfg0.N) : Fin cfg0.N := ⟨t.val / 8 * 8, by have h : t.val < 64 := lt_of_lt_of_eq t.isLt N64; exact lt_of_lt_of_eq (by omega : t.val / 8 * 8 < 64) N64.symm⟩

theorem base_val (t : Fin cfg0.N) : (base t).val = t.val / 8 * 8 := rfl
/-- At the first tile of a batch the batch's first point is the point itself. -/
theorem base_self (t : Fin cfg0.N) (h : t.val % 8 = 0) : base t = t := Fin.ext (by rw [base_val]; omega)
/-- At a later tile it is the previous point's. -/
theorem base_pred (t : Fin cfg0.N) (h : ¬t.val % 8 = 0) (hp : t.val - 1 < cfg0.N) : base ⟨t.val - 1, hp⟩ = base t :=
  Fin.ext (by rw [base_val, base_val]; show (t.val - 1) / 8 * 8 = _; omega)

/-- The converted weight matrix the body caches at the first point. -/
def Wc (c : Dev nD) : Vec F S1024x1024 .bf16 := k0_pay2 (iblk m c 2 t0)
/-- The converted slab of point t's batch, cached at the batch's first point. -/
def KVc (c : Dev nD) (t : Fin cfg0.N) : Vec F S2048x1024 .bf16 := k0_pay3 (iblk m c 1 (base t))

/-- The two scratch operands: whole scoped buffers of the kernel's own. -/
abbrev scM0 : Memref sig .tc .vmem S2048x1024 .bf16 := Memref.whole cc0_scratch0
abbrev scM1 : Memref sig .tc .vmem S1024x1024 .bf16 := Memref.whole cc0_scratch1

/-- What the body holds of its own between points: before the first point both scratch buffers at anything; after
    point n the slab cache at the slab of n's batch and the weight cache at the converted weights. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (KVc m c ⟨n, hn⟩) ∗ owns (c : Thread nD τ) scM1 fullShare (Wc m c))

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl

theorem PhiS_succ (c : Dev nD) (n : ℕ) (hn : n < cfg0.N) :
    PhiS m c (n + 1) hn = iprop(owns (c : Thread nD τ) scM0 fullShare (KVc m c ⟨n, hn⟩) ∗ owns (c : Thread nD τ) scM1 fullShare (Wc m c)) := rfl

theorem PhiS_pos (c : Dev nD) (n : ℕ) (h : n ≤ cfg0.N) (hz : n ≠ 0) :
    PhiS m c n h = iprop(owns (c : Thread nD τ) scM0 fullShare (KVc m c ⟨n - 1, by omega⟩) ∗ owns (c : Thread nD τ) scM1 fullShare (Wc m c)) := by
  cases n with
  | zero => exact absurd rfl hz
  | succ n => rfl

/-- The proof data on core c. The array behind windows 0 and 1 is held at half the full share by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (k0_pay6 (iblk m c 0 t) (Wc m c) (KVc m c t))
    | ⟨4, _⟩ => k0_pay5 (iblk m c 0 t) (Wc m c) (KVc m c t)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay1 (k0_pay6 (iblk m c 0 t) (Wc m c) (KVc m c t)) := by dsimp only [dats]
theorem after_4 (c : Dev nD) (t : Fin cfg0.N) :
    (dats m 0 c).after 4 t = k0_pay5 (iblk m c 0 t) (Wc m c) (KVc m c t) := by dsimp only [dats]

/-- Each input's current staging buffer holds its block of the array at every point, fetched there or not: the body
    leaves it in place, and where it is not fetched the block index has not moved. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

end Cert.Kernel.Hand

end
-- ==== Proof.K.Stores.lean ====
/-
  One store through the whole buffer leaves its payload, whatever the buffer held; and the zero offsets of the
  body's rectangles, spelt as the printed text spells them.
-/
import proofs.«106206_j36361193128336_2_alg».proof.Proof.K.Conds
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz2 : (![0, 0] : Fin 2 → Nat) = fun _ => 0 := funext fun a => by
  match a with | ⟨0, _⟩ => rfl | ⟨1, _⟩ => rfl
theorem hz3 : (![0, 0, 0] : Fin 3 → Nat) = fun _ => 0 := funext fun a => by
  match a with | ⟨0, _⟩ => rfl | ⟨1, _⟩ => rfl | ⟨2, _⟩ => rfl

/-- A buffer read back after ONE store through the whole-shape rectangle at zero offsets holds the stored value. -/
theorem read_one_store {Val : EltTy → Type} [∀ e, Nonempty (Val e)] {sig' : RefSig} {κ : Kind} {sp : Space} {S : Shape} {e : EltTy}
    (v : View sig' κ sp S e) (f : v.ty.Contents Val) {off : Fin S.rank → Nat} (hz : off = fun _ => 0)
    (inb : ∀ a, off a + S.size a ≤ S.size a) (p : S.Idx → Val e) :
    v.read Val (v.writes Val f [(⟨Rect.unit off S.size inb, p⟩ : View.Piece Val S e)]) = p :=
  (View.read_writes_eq_canon v f _ (fun y => ⟨_, List.mem_singleton_self _, View.mem_set_unit_zero hz inb y⟩)).trans
    (View.canon_unit_zero hz inb p)

end Cert.Kernel.Hand

end
-- ==== Proof.K.RunA.lean ====
import proofs.«106206_j36361193128336_2_alg».proof.Proof.K.Conds
import proofs.«106206_j36361193128336_2_alg».proof.Proof.K.Stores
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the very first point: the weight block is converted into the weight cache, the batch slab into the
    slab cache, and the two result tiles are computed from the query tile and the two caches just written. -/
theorem runA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S1024x1024 .bf16) (harg8 : arg8.IsWhole)
    (hcW : condW i) (hcX : condX i)
    (x0 : Vec F S1x256x1024 .f32) (x1 : Vec F S1x2048x1024 .f32) (x2 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay6 x0 (k0_pay2 x2) (k0_pay3 x1))) ∗ owns (c : Thread nD τ) arg6 fullShare (k0_pay5 x0 (k0_pay2 x2) (k0_pay3 x1))
            ∗ owns (c : Thread nD τ) arg7 fullShare (k0_pay3 x1) ∗ owns (c : Thread nD τ) arg8 fullShare (k0_pay2 x2)) -∗ K ⟨⟩))
      ⊢ wp frame (wpE (defs₀ (F := F)) Variants.none c none) E (cc0__bilinear_attn_kernel i arg2 harg2 arg3 harg3 arg4 harg4 arg5 harg5 arg6 harg6 arg7 harg7 arg8 harg8) K := by
  simp only [cc0__bilinear_attn_kernel_eq_skeleton]; unfold cc0__bilinear_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  sl_exec (disch := first | exact hcW | exact hcX)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H6]
  · iexists _; isplitr
    swap; · iexact H6
    ipureintro
    sl_unfold_run_names
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H7]
  · iexists _; isplitr
    swap; · iexact H7
    ipureintro
    sl_unfold_run_names
    rw [read_one_store _ _ hz2]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  iexists _; isplitr
  swap; · iexact H8
  ipureintro
  sl_unfold_run_names
  rw [read_one_store _ _ hz2]
  simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]

end Cert.Kernel.Hand

end
-- ==== Proof.K.RunB.lean ====
import proofs.«106206_j36361193128336_2_alg».proof.Proof.K.Conds
import proofs.«106206_j36361193128336_2_alg».proof.Proof.K.Stores
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first tile of a later batch: the batch slab is converted into the slab cache; the weight cache
    is the one written at the first point; the two result tiles come from the query tile and the two caches. -/
theorem runB (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S1024x1024 .bf16) (harg8 : arg8.IsWhole)
    (hcW : ¬condW i) (hcX : condX i)
    (x0 : Vec F S1x256x1024 .f32) (x1 : Vec F S1x2048x1024 .f32) (x2 : Vec F S1024x1024 .f32)
    (w : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare w
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay6 x0 w (k0_pay3 x1))) ∗ owns (c : Thread nD τ) arg6 fullShare (k0_pay5 x0 w (k0_pay3 x1))
            ∗ owns (c : Thread nD τ) arg7 fullShare (k0_pay3 x1) ∗ owns (c : Thread nD τ) arg8 fullShare w) -∗ K ⟨⟩))
      ⊢ wp frame (wpE (defs₀ (F := F)) Variants.none c none) E (cc0__bilinear_attn_kernel i arg2 harg2 arg3 harg3 arg4 harg4 arg5 harg5 arg6 harg6 arg7 harg7 arg8 harg8) K := by
  simp only [cc0__bilinear_attn_kernel_eq_skeleton]; unfold cc0__bilinear_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg2.eq_unread hf2; obtain rfl := harg3.eq_unread hf3; obtain rfl := harg8.eq_unread hf8
  sl_exec (disch := first | exact hcW | exact hcX)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr
    swap; · iexact H5
    ipureintro
    sl_unfold_run_names
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H6]
  · iexists _; isplitr
    swap; · iexact H6
    ipureintro
    sl_unfold_run_names
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H7]
  · iexists _; isplitr
    swap; · iexact H7
    ipureintro
    sl_unfold_run_names
    rw [read_one_store _ _ hz2]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  iexists _; isplitr; · ipureintro; exact harg8.read_unread _
  iexact H8

end Cert.Kernel.Hand

end
-- ==== Proof.K.RunC.lean ====
import proofs.«106206_j36361193128336_2_alg».proof.Proof.K.Conds
import proofs.«106206_j36361193128336_2_alg».proof.Proof.K.Stores
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that is not the first tile of its batch: nothing is converted; the query tile, the cached
    weights and the cached slab give the two result tiles. The inputs and both caches come back as they were. -/
theorem runC (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S1024x1024 .bf16) (harg8 : arg8.IsWhole)
    (hcW : ¬condW i) (hcX : ¬condX i)
    (x0 : Vec F S1x256x1024 .f32) (x1 : Vec F S1x2048x1024 .f32) (x2 : Vec F S1024x1024 .f32)
    (kv : Vec F S2048x1024 .bf16) (w : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare kv ∗ owns (c : Thread nD τ) arg8 fullShare w
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay6 x0 w kv)) ∗ owns (c : Thread nD τ) arg6 fullShare (k0_pay5 x0 w kv)
            ∗ owns (c : Thread nD τ) arg7 fullShare kv ∗ owns (c : Thread nD τ) arg8 fullShare w) -∗ K ⟨⟩))
      ⊢ wp frame (wpE (defs₀ (F := F)) Variants.none c none) E (cc0__bilinear_attn_kernel i arg2 harg2 arg3 harg3 arg4 harg4 arg5 harg5 arg6 harg6 arg7 harg7 arg8 harg8) K := by
  simp only [cc0__bilinear_attn_kernel_eq_skeleton]; unfold cc0__bilinear_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf2; obtain rfl := harg7.eq_unread hf7; obtain rfl := harg8.eq_unread hf8
  sl_exec (disch := first | exact hcW | exact hcX)
  sl_step
  iapply Hk
  isplitl [H2]
  · iexists _; isplitr; · ipureintro; exact harg2.read_unread _
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_one_store _ _ hz3]
    sl_unfold_run_names
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H6]
  · iexists _; isplitr
    swap; · iexact H6
    ipureintro
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H7]
  · iexists _; isplitr; · ipureintro; exact harg7.read_unread _
    iexact H7
  iexists _; isplitr; · ipureintro; exact harg8.read_unread _
  iexact H8

end Cert.Kernel.Hand

end
-- ==== Proof.K.Body.lean ====
/-
  The body obligation of the pipelined call. At every grid point the body is handed each input's staging buffer at
  the input's block there, the outputs' buffers at anything, and its own two scratch buffers at what the point
  before left (at anything before the first point). It returns the inputs as they were, the outputs at the context
  and attention tiles of this point, and the scratch at the converted weights and the converted slab of this
  point's batch. Which of the three runs applies is decided by the point's position: first point of all, first
  tile of a later batch, any other tile.
-/
import proofs.«106206_j36361193128336_2_alg».proof.Proof.K.Dats
import proofs.«106206_j36361193128336_2_alg».proof.Proof.K.RunA
import proofs.«106206_j36361193128336_2_alg».proof.Proof.K.RunB
import proofs.«106206_j36361193128336_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging memref at point t, as the pipeline passes it, and its wholeness. -/
abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x2048 .f32 := win0_4.stage (cfg0.slots t 4)
abbrev hs4 (t : Fin cfg0.N) : (ms4 t).IsWhole := hstage0_4 ((cfg0.slots t 4).cast nbuf0_4)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) :
    (dats m 0 c).leavesExact 0 t = owns (c : Thread nD τ) (ms0 t) fullShare (iblk m c 0 t) := by
  unfold Dat.leavesExact; rw [live 0 t, after_0]
theorem leaves_1 (c : Dev nD) (t : Fin cfg0.N) :
    (dats m 0 c).leavesExact 1 t = owns (c : Thread nD τ) (ms1 t) fullShare (iblk m c 1 t) := by
  unfold Dat.leavesExact; rw [live 1 t, after_1]
theorem leaves_2 (c : Dev nD) (t : Fin cfg0.N) :
    (dats m 0 c).leavesExact 2 t = owns (c : Thread nD τ) (ms2 t) fullShare (iblk m c 2 t) := by
  unfold Dat.leavesExact; rw [live 2 t, after_2]
theorem leaves_3 (c : Dev nD) (t : Fin cfg0.N) :
    (dats m 0 c).leavesExact 3 t = owns (c : Thread nD τ) (ms3 t) fullShare (k0_pay1 (k0_pay6 (iblk m c 0 t) (Wc m c) (KVc m c t))) := by
  unfold Dat.leavesExact; rw [live 3 t, after_3]
theorem leaves_4 (c : Dev nD) (t : Fin cfg0.N) :
    (dats m 0 c).leavesExact 4 t = owns (c : Thread nD τ) (ms4 t) fullShare (k0_pay5 (iblk m c 0 t) (Wc m c) (KVc m c t)) := by
  unfold Dat.leavesExact; rw [live 4 t, after_4]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 64 := lt_of_lt_of_eq t.isLt N64
  have hKt : KVc m c ⟨t.val, t.isLt⟩ = KVc m c t := rfl
  rw [hKt]
  by_cases hX : t.val % 8 = 0
  · have hb : KVc m c t = k0_pay3 (iblk m c 1 t) := by unfold KVc; rw [base_self t hX]
    by_cases hW : t.val % 64 = 0
    · -- the first point of the grid
      have hz : t.val = 0 := by omega
      have e0 : t0 = t := Fin.ext hz.symm
      have hw : Wc m c = k0_pay2 (iblk m c 2 t) := by unfold Wc; rw [e0]
      rw [hb, hw, PhiS_castSucc m c t, PhiS_zero m c _ _ hz]
      iintro ⟨⟨HS0, HS1⟩, Ho, ⟨%d0, H0⟩, ⟨%d1, H1⟩, ⟨%d2, H2⟩, ⟨%d3, H3⟩, ⟨%d4, H4⟩⟩
      iapply (runA c (grid0.coords t) (ms0 t) (hs0 t) (ms1 t) (hs1 t) (ms2 t) (hs2 t) (ms3 t) (hs3 t) (ms4 t) (hs4 t) scM0 (Memref.isWhole_whole _) scM1 (Memref.isWhole_whole _)
        ((hcondW t).mpr hW) ((hcondX t).mpr hX) (iblk m c 0 t) (iblk m c 1 t) (iblk m c 2 t) Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
    · -- the first tile of a later batch
      have hz : t.val ≠ 0 := by omega
      rw [hb, PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩⟩
      iapply (runB c (grid0.coords t) (ms0 t) (hs0 t) (ms1 t) (hs1 t) (ms2 t) (hs2 t) (ms3 t) (hs3 t) (ms4 t) (hs4 t) scM0 (Memref.isWhole_whole _) scM1 (Memref.isWhole_whole _)
        (fun h => hW ((hcondW t).mp h)) ((hcondX t).mpr hX) (iblk m c 0 t) (iblk m c 1 t) (iblk m c 2 t) (Wc m c) Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
  · -- a later tile of a batch
    have hz : t.val ≠ 0 := by omega
    have hp : t.val - 1 < cfg0.N := Nat.lt_of_le_of_lt (Nat.sub_le _ _) t.isLt
    have hk : KVc m c ⟨t.val - 1, hp⟩ = KVc m c t := by unfold KVc; rw [base_pred t hX hp]
    rw [PhiS_castSucc m c t, PhiS_pos m c _ _ hz, hk]
    iintro ⟨⟨HS0, HS1⟩, Ho, ⟨%d0, H0⟩, ⟨%d1, H1⟩, ⟨%d2, H2⟩, ⟨%d3, H3⟩, ⟨%d4, H4⟩⟩
    iapply (runC c (grid0.coords t) (ms0 t) (hs0 t) (ms1 t) (hs1 t) (ms2 t) (hs2 t) (ms3 t) (hs3 t) (ms4 t) (hs4 t) scM0 (Memref.isWhole_whole _) scM1 (Memref.isWhole_whole _)
      (fun h => hX (by have := (hcondW t).mp h; omega)) (fun h => hX ((hcondX t).mp h)) (iblk m c 0 t) (iblk m c 1 t) (iblk m c 2 t) (KVc m c t) (Wc m c) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The run of the whole program. The program is the one pipelined call. Two of its windows read the same argument
  array (the query tile and the batch slab are both blocks of x), so at entry that array's holding is split in two
  halves, one per window; the weight matrix and the two results are held outright. The kernel's two scratch buffers
  are handed to the body at anything and taken back at anything. Every weakly fair execution then terminates
  without a fault, and every windowed array ends at what the write-backs of the grid points leave in it; an input
  array is never written back, so it ends as it began.
-/
import proofs.«106206_j36361193128336_2_alg».proof.Proof.K.Body
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays at entry: x's buffer, held whole, gives each of its two windows one half; the others are held
    outright. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hF : ∀ w, (dats m 0 c).arrAt w 0 = V m c (Pipeline.arrRef spec0 w) := fun w => A_eq m c w
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  have harrs : (dats m 0 c).arrays (fun w => (dats m 0 c).arrAt w 0)
      = bigSep Finset.univ fun w : Fin cfg0.W =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; beta_reduce; rw [hF w]
  rw [harrs]
  unfold Pipeline.arrBufs
  rw [show ∀ Φ : Ref sig .tc → sProp 𝕄, bigSep (Finset.univ.image (Pipeline.arrRef spec0)) Φ
      = iprop(Φ main_arg0 ∗ Φ main_arg1 ∗ Φ main_v0_0 ∗ Φ main_v0_1) from
    fun Φ => bigSep_eq_bigSepL_of_eq [main_arg0, main_arg1, main_v0_0, main_v0_1] (by decide) (by decide) Φ, bigSep_W0]
  simp only [hs0, hs1, hs2, hs3, hs4]
  iintro ⟨Hx, Hw, Hc, Ha⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [Hw]; · iexact Hw
  isplitl [Hc]; · iexact Hc
  iexact Ha

/-- No other buffer of the program bypasses the call. -/
theorem hX (c : Dev nD) :
    (Pipeline.unscopedRest (Ix := Unit) (Name := ℕ) (U := UR sig nD τ) (Lvl := ℕ) spec0 c (V m c) : sProp 𝕄) ⊢ iprop(iprop(emp) ∗ iprop(emp)) := by
  rw [unscopedRest0_eq]
  iintro H
  isplitl [H]; · iexact H
  iempintro

/-- The scratch buffers, at anything, are what the body holds before the first point. -/
theorem hin (c : Dev nD) :
    iprop(iprop(emp) ∗ Pipeline.scopedRest (Ix := Unit) (Name := ℕ) (U := UR sig nD τ) (Lvl := ℕ) spec0 c) ⊢ (dats m 0 c).Φ 0 := by
  rw [show (dats m 0 c).Φ 0 = PhiS m c 0 (Nat.zero_le _) from rfl, PhiS_zero m c 0 _ rfl, scopedRest0_eq]
  simp only [scM0, scM1, owns_whole]
  iintro ⟨-, H0, H1⟩
  isplitl [H0]; · iexact H0
  iexact H1

/-- After the last point they are given back, their contents forgotten. -/
theorem hout (c : Dev nD) :
    (dats m 0 c).Φ (Fin.last cfg0.N) ⊢ iprop(iprop(emp) ∗ Pipeline.scopedRest (Ix := Unit) (Name := ℕ) (U := UR sig nD τ) (Lvl := ℕ) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N64; omega), scopedRest0_eq]
  simp only [scM0, scM1, owns_whole]
  iintro ⟨H0, H1⟩
  isplitr [H0 H1]; · iempintro
  isplitl [H0]; · iexists _; iexact H0
  iexists _; iexact H1

set_option backward.isDefEq.respectTransparency.types false in
/-- Every weakly fair execution of the program terminates, nothing faulting, and every windowed array ends at
    what the proof data computes for it. -/
theorem run_main : θ_run defs (onTc (τ := τ) (main (F := F))) ⟨m, fun _ => 0, ρ⟩
    (fun r => ∀ c : Dev nD, ∀ w : Fin cfg0.W, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m)
    (hmain := Pipeline.hmain_region cfgs 0 defs₀ Variants.none m main (fun _ => rfl))
    (hsplit := hsplit m)
    (X := fun _ => iprop(emp)) (Y := fun _ => iprop(emp)) (Z := fun _ => iprop(emp))
    (hX := hX m)
    (hin := hin m) (hout := hout m)
    (QY := fun _ _ => True)
    (hY := fun c s' => by
      iintro ⟨-, -, HSI⟩; imodintro
      isplitr [HSI]; · ipureintro; trivial
      iexact HSI)
    (hQ := fun s h c w => (h c).1 w)

/-- The frame: the program runs to the end and its two arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 0).trans (((dats m 0 c).arrAt_in 0 rfl _).trans (A_eq m c 0)),
     ((h c) 2).trans (((dats m 0 c).arrAt_in 2 rfl _).trans (A_eq m c 2))⟩) (run_main m ρ)

end Cert.Kernel.Hand

end
-- ==== Proof.KI.Conds.lean ====
/-
  The two branches of the kernel body are taken by the position in the grid alone. The grid is 8 batches by 8
  query tiles, walked batch by batch: point t is batch t / 8, tile t % 8. The weight matrix is converted and cached
  at the very first point (batch 0, tile 0), the batch's key/value slab at the first tile of each batch.
-/
import proofs.«106206_j36361193128336_2_alg».proof.Proof.Gen.KernelIdeal.Launch
import proofs.«106206_j36361193128336_2_alg».proof.Proof.Gen.KernelIdeal.Skeleton
import proofs.«106206_j36361193128336_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- "First point of the whole grid": batch 0 and tile 0, as the body's scalar chain spells it. -/
abbrev condW (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at point 0 only. -/
theorem hcondW : ∀ t : Fin cfg0.N, condW (grid0.coords t) ↔ t.val % 64 = 0 :=
  (by decide +kernel : ∀ t : Fin grid0.N, condW (grid0.coords t) ↔ t.val % 64 = 0)

/-- "First tile of a batch": tile 0, as the body's scalar chain spells it. -/
abbrev condX (i : grid0.Coords) : Prop :=
  Scalar.cmpi .ne (Scalar.extui (Scalar.cmpi .eq (BitVec.ofNat 32 (i 1).val) 0#32)) 0#32 = 1#1
/-- It holds at the points that are multiples of 8. -/
theorem hcondX : ∀ t : Fin cfg0.N, condX (grid0.coords t) ↔ t.val % 8 = 0 :=
  (by decide +kernel : ∀ t : Fin grid0.N, condX (grid0.coords t) ↔ t.val % 8 = 0)

/-- No window is ever idle: every point loads its query tile and stores both results. -/
theorem live : ∀ (w : Fin cfg0.W) (t : Fin cfg0.N), cfg0.idle w (grid0.coords t) = false := by decide +kernel

end Cert.KernelIdeal.Hand

end
-- ==== Proof.KI.Dats.lean ====
/-
  The proof data of the one pipelined call. Grid point t is batch t / 8, query tile t % 8.
  Inputs: the query tile x[b, 256 q .. 256 q + 255, :], the batch slab x[b, :, :] (the same array through a second
  window, so the two windows hold the array at half the full share each), and the weight matrix W. Each input's
  staging buffer holds its block of the array at every point, fetched there or not.
  Carried between points: the converted weight matrix (written once, at the first point, from W's block) and the
  converted batch slab (written at the first tile of each batch from the slab's block there).
  Outputs at point t: the context tile and the attention tile, as the body's payloads of the query tile and the
  two carried buffers.
-/
import proofs.«106206_j36361193128336_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffer contents when the call is entered: the launch memory (nothing runs before the call). -/
abbrev V (c : Dev nD) (b : Ref sig .tc) : Buf (Elt F) ((c : Thread nD τ).loc b) := m ((c : Thread nD τ).loc b)

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem N64 : cfg0.N = 64 := N_0

/-- The first point of the grid. -/
def t0 : Fin cfg0.N := ⟨0, lt_of_lt_of_eq (by omega : 0 < 64) N64.symm⟩
/-- The first point of point t's batch. -/
def base (t : Fin cfg0.N) : Fin cfg0.N := ⟨t.val / 8 * 8, by have h : t.val < 64 := lt_of_lt_of_eq t.isLt N64; exact lt_of_lt_of_eq (by omega : t.val / 8 * 8 < 64) N64.symm⟩

theorem base_val (t : Fin cfg0.N) : (base t).val = t.val / 8 * 8 := rfl
/-- At the first tile of a batch the batch's first point is the point itself. -/
theorem base_self (t : Fin cfg0.N) (h : t.val % 8 = 0) : base t = t := Fin.ext (by rw [base_val]; omega)
/-- At a later tile it is the previous point's. -/
theorem base_pred (t : Fin cfg0.N) (h : ¬t.val % 8 = 0) (hp : t.val - 1 < cfg0.N) : base ⟨t.val - 1, hp⟩ = base t :=
  Fin.ext (by rw [base_val, base_val]; show (t.val - 1) / 8 * 8 = _; omega)

/-- The converted weight matrix the body caches at the first point. -/
def Wc (c : Dev nD) : Vec F S1024x1024 .bf16 := k0_pay2 (iblk m c 2 t0)
/-- The converted slab of point t's batch, cached at the batch's first point. -/
def KVc (c : Dev nD) (t : Fin cfg0.N) : Vec F S2048x1024 .bf16 := k0_pay3 (iblk m c 1 (base t))

/-- The two scratch operands: whole scoped buffers of the kernel's own. -/
abbrev scM0 : Memref sig .tc .vmem S2048x1024 .bf16 := Memref.whole cc0_scratch0
abbrev scM1 : Memref sig .tc .vmem S1024x1024 .bf16 := Memref.whole cc0_scratch1

/-- What the body holds of its own between points: before the first point both scratch buffers at anything; after
    point n the slab cache at the slab of n's batch and the weight cache at the converted weights. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (KVc m c ⟨n, hn⟩) ∗ owns (c : Thread nD τ) scM1 fullShare (Wc m c))

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl

theorem PhiS_succ (c : Dev nD) (n : ℕ) (hn : n < cfg0.N) :
    PhiS m c (n + 1) hn = iprop(owns (c : Thread nD τ) scM0 fullShare (KVc m c ⟨n, hn⟩) ∗ owns (c : Thread nD τ) scM1 fullShare (Wc m c)) := rfl

theorem PhiS_pos (c : Dev nD) (n : ℕ) (h : n ≤ cfg0.N) (hz : n ≠ 0) :
    PhiS m c n h = iprop(owns (c : Thread nD τ) scM0 fullShare (KVc m c ⟨n - 1, by omega⟩) ∗ owns (c : Thread nD τ) scM1 fullShare (Wc m c)) := by
  cases n with
  | zero => exact absurd rfl hz
  | succ n => rfl

/-- The proof data on core c. The array behind windows 0 and 1 is held at half the full share by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (k0_pay6 (iblk m c 0 t) (Wc m c) (KVc m c t))
    | ⟨4, _⟩ => k0_pay5 (iblk m c 0 t) (Wc m c) (KVc m c t)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay1 (k0_pay6 (iblk m c 0 t) (Wc m c) (KVc m c t)) := by dsimp only [dats]
theorem after_4 (c : Dev nD) (t : Fin cfg0.N) :
    (dats m 0 c).after 4 t = k0_pay5 (iblk m c 0 t) (Wc m c) (KVc m c t) := by dsimp only [dats]

/-- Each input's current staging buffer holds its block of the array at every point, fetched there or not: the body
    leaves it in place, and where it is not fetched the block index has not moved. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

end Cert.KernelIdeal.Hand

end
-- ==== Proof.KI.Stores.lean ====
/-
  One store through the whole buffer leaves its payload, whatever the buffer held; and the zero offsets of the
  body's rectangles, spelt as the printed text spells them.
-/
import proofs.«106206_j36361193128336_2_alg».proof.Proof.KI.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz2 : (![0, 0] : Fin 2 → Nat) = fun _ => 0 := funext fun a => by
  match a with | ⟨0, _⟩ => rfl | ⟨1, _⟩ => rfl
theorem hz3 : (![0, 0, 0] : Fin 3 → Nat) = fun _ => 0 := funext fun a => by
  match a with | ⟨0, _⟩ => rfl | ⟨1, _⟩ => rfl | ⟨2, _⟩ => rfl

/-- A buffer read back after ONE store through the whole-shape rectangle at zero offsets holds the stored value. -/
theorem read_one_store {Val : EltTy → Type} [∀ e, Nonempty (Val e)] {sig' : RefSig} {κ : Kind} {sp : Space} {S : Shape} {e : EltTy}
    (v : View sig' κ sp S e) (f : v.ty.Contents Val) {off : Fin S.rank → Nat} (hz : off = fun _ => 0)
    (inb : ∀ a, off a + S.size a ≤ S.size a) (p : S.Idx → Val e) :
    v.read Val (v.writes Val f [(⟨Rect.unit off S.size inb, p⟩ : View.Piece Val S e)]) = p :=
  (View.read_writes_eq_canon v f _ (fun y => ⟨_, List.mem_singleton_self _, View.mem_set_unit_zero hz inb y⟩)).trans
    (View.canon_unit_zero hz inb p)

end Cert.KernelIdeal.Hand

end
-- ==== Proof.KI.RunA.lean ====
import proofs.«106206_j36361193128336_2_alg».proof.Proof.KI.Conds
import proofs.«106206_j36361193128336_2_alg».proof.Proof.KI.Stores
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the very first point: the weight block is converted into the weight cache, the batch slab into the
    slab cache, and the two result tiles are computed from the query tile and the two caches just written. -/
theorem runA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S1024x1024 .bf16) (harg8 : arg8.IsWhole)
    (hcW : condW i) (hcX : condX i)
    (x0 : Vec F S1x256x1024 .f32) (x1 : Vec F S1x2048x1024 .f32) (x2 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay6 x0 (k0_pay2 x2) (k0_pay3 x1))) ∗ owns (c : Thread nD τ) arg6 fullShare (k0_pay5 x0 (k0_pay2 x2) (k0_pay3 x1))
            ∗ owns (c : Thread nD τ) arg7 fullShare (k0_pay3 x1) ∗ owns (c : Thread nD τ) arg8 fullShare (k0_pay2 x2)) -∗ K ⟨⟩))
      ⊢ wp frame (wpE (defs₀ (F := F)) Variants.none c none) E (cc0__bilinear_attn_kernel i arg2 harg2 arg3 harg3 arg4 harg4 arg5 harg5 arg6 harg6 arg7 harg7 arg8 harg8) K := by
  simp only [cc0__bilinear_attn_kernel_eq_skeleton]; unfold cc0__bilinear_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  sl_exec (disch := first | exact hcW | exact hcX)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H6]
  · iexists _; isplitr
    swap; · iexact H6
    ipureintro
    sl_unfold_run_names
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H7]
  · iexists _; isplitr
    swap; · iexact H7
    ipureintro
    sl_unfold_run_names
    rw [read_one_store _ _ hz2]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  iexists _; isplitr
  swap; · iexact H8
  ipureintro
  sl_unfold_run_names
  rw [read_one_store _ _ hz2]
  simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]

end Cert.KernelIdeal.Hand

end
-- ==== Proof.KI.RunB.lean ====
import proofs.«106206_j36361193128336_2_alg».proof.Proof.KI.Conds
import proofs.«106206_j36361193128336_2_alg».proof.Proof.KI.Stores
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first tile of a later batch: the batch slab is converted into the slab cache; the weight cache
    is the one written at the first point; the two result tiles come from the query tile and the two caches. -/
theorem runB (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S1024x1024 .bf16) (harg8 : arg8.IsWhole)
    (hcW : ¬condW i) (hcX : condX i)
    (x0 : Vec F S1x256x1024 .f32) (x1 : Vec F S1x2048x1024 .f32) (x2 : Vec F S1024x1024 .f32)
    (w : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare w
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay6 x0 w (k0_pay3 x1))) ∗ owns (c : Thread nD τ) arg6 fullShare (k0_pay5 x0 w (k0_pay3 x1))
            ∗ owns (c : Thread nD τ) arg7 fullShare (k0_pay3 x1) ∗ owns (c : Thread nD τ) arg8 fullShare w) -∗ K ⟨⟩))
      ⊢ wp frame (wpE (defs₀ (F := F)) Variants.none c none) E (cc0__bilinear_attn_kernel i arg2 harg2 arg3 harg3 arg4 harg4 arg5 harg5 arg6 harg6 arg7 harg7 arg8 harg8) K := by
  simp only [cc0__bilinear_attn_kernel_eq_skeleton]; unfold cc0__bilinear_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg2.eq_unread hf2; obtain rfl := harg3.eq_unread hf3; obtain rfl := harg8.eq_unread hf8
  sl_exec (disch := first | exact hcW | exact hcX)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr
    swap; · iexact H5
    ipureintro
    sl_unfold_run_names
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H6]
  · iexists _; isplitr
    swap; · iexact H6
    ipureintro
    sl_unfold_run_names
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H7]
  · iexists _; isplitr
    swap; · iexact H7
    ipureintro
    sl_unfold_run_names
    rw [read_one_store _ _ hz2]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  iexists _; isplitr; · ipureintro; exact harg8.read_unread _
  iexact H8

end Cert.KernelIdeal.Hand

end
-- ==== Proof.KI.RunC.lean ====
import proofs.«106206_j36361193128336_2_alg».proof.Proof.KI.Conds
import proofs.«106206_j36361193128336_2_alg».proof.Proof.KI.Stores
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that is not the first tile of its batch: nothing is converted; the query tile, the cached
    weights and the cached slab give the two result tiles. The inputs and both caches come back as they were. -/
theorem runC (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x256x1024 .f32) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S1024x1024 .bf16) (harg8 : arg8.IsWhole)
    (hcW : ¬condW i) (hcX : ¬condX i)
    (x0 : Vec F S1x256x1024 .f32) (x1 : Vec F S1x2048x1024 .f32) (x2 : Vec F S1024x1024 .f32)
    (kv : Vec F S2048x1024 .bf16) (w : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare kv ∗ owns (c : Thread nD τ) arg8 fullShare w
        ∗ (iprop(owns (c : Thread nD τ) arg2 fullShare x0 ∗ owns (c : Thread nD τ) arg3 fullShare x1 ∗ owns (c : Thread nD τ) arg4 fullShare x2
            ∗ owns (c : Thread nD τ) arg5 fullShare (k0_pay1 (k0_pay6 x0 w kv)) ∗ owns (c : Thread nD τ) arg6 fullShare (k0_pay5 x0 w kv)
            ∗ owns (c : Thread nD τ) arg7 fullShare kv ∗ owns (c : Thread nD τ) arg8 fullShare w) -∗ K ⟨⟩))
      ⊢ wp frame (wpE (defs₀ (F := F)) Variants.none c none) E (cc0__bilinear_attn_kernel i arg2 harg2 arg3 harg3 arg4 harg4 arg5 harg5 arg6 harg6 arg7 harg7 arg8 harg8) K := by
  simp only [cc0__bilinear_attn_kernel_eq_skeleton]; unfold cc0__bilinear_attn_kernel_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg2.eq_unread hf2; obtain rfl := harg7.eq_unread hf7; obtain rfl := harg8.eq_unread hf8
  sl_exec (disch := first | exact hcW | exact hcX)
  sl_step
  iapply Hk
  isplitl [H2]
  · iexists _; isplitr; · ipureintro; exact harg2.read_unread _
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_one_store _ _ hz3]
    sl_unfold_run_names
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H6]
  · iexists _; isplitr
    swap; · iexact H6
    ipureintro
    rw [read_one_store _ _ hz3]
    simp only [View.readAt_eq_ld, harg2.read_unread, harg3.read_unread, harg4.read_unread, harg7.read_unread, harg8.read_unread, View.ld_unit_zero (S := S1x256x1024) hz3, View.ld_unit_zero (S := S1x2048x1024) hz3, View.ld_unit_zero (S := S1x256x2048) hz3, View.ld_unit_zero (S := S1024x1024) hz2, View.ld_unit_zero (S := S2048x1024) hz2, View.readCov_unit_zero (S := S2048x1024) _ hz2, View.readCov_unit_zero (S := S1024x1024) _ hz2]
  isplitl [H7]
  · iexists _; isplitr; · ipureintro; exact harg7.read_unread _
    iexact H7
  iexists _; isplitr; · ipureintro; exact harg8.read_unread _
  iexact H8

end Cert.KernelIdeal.Hand

end
-- ==== Proof.KI.Body.lean ====
/-
  The body obligation of the pipelined call. At every grid point the body is handed each input's staging buffer at
  the input's block there, the outputs' buffers at anything, and its own two scratch buffers at what the point
  before left (at anything before the first point). It returns the inputs as they were, the outputs at the context
  and attention tiles of this point, and the scratch at the converted weights and the converted slab of this
  point's batch. Which of the three runs applies is decided by the point's position: first point of all, first
  tile of a later batch, any other tile.
-/
import proofs.«106206_j36361193128336_2_alg».proof.Proof.KI.Dats
import proofs.«106206_j36361193128336_2_alg».proof.Proof.KI.RunA
import proofs.«106206_j36361193128336_2_alg».proof.Proof.KI.RunB
import proofs.«106206_j36361193128336_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging memref at point t, as the pipeline passes it, and its wholeness. -/
abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x2048 .f32 := win0_4.stage (cfg0.slots t 4)
abbrev hs4 (t : Fin cfg0.N) : (ms4 t).IsWhole := hstage0_4 ((cfg0.slots t 4).cast nbuf0_4)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) :
    (dats m 0 c).leavesExact 0 t = owns (c : Thread nD τ) (ms0 t) fullShare (iblk m c 0 t) := by
  unfold Dat.leavesExact; rw [live 0 t, after_0]
theorem leaves_1 (c : Dev nD) (t : Fin cfg0.N) :
    (dats m 0 c).leavesExact 1 t = owns (c : Thread nD τ) (ms1 t) fullShare (iblk m c 1 t) := by
  unfold Dat.leavesExact; rw [live 1 t, after_1]
theorem leaves_2 (c : Dev nD) (t : Fin cfg0.N) :
    (dats m 0 c).leavesExact 2 t = owns (c : Thread nD τ) (ms2 t) fullShare (iblk m c 2 t) := by
  unfold Dat.leavesExact; rw [live 2 t, after_2]
theorem leaves_3 (c : Dev nD) (t : Fin cfg0.N) :
    (dats m 0 c).leavesExact 3 t = owns (c : Thread nD τ) (ms3 t) fullShare (k0_pay1 (k0_pay6 (iblk m c 0 t) (Wc m c) (KVc m c t))) := by
  unfold Dat.leavesExact; rw [live 3 t, after_3]
theorem leaves_4 (c : Dev nD) (t : Fin cfg0.N) :
    (dats m 0 c).leavesExact 4 t = owns (c : Thread nD τ) (ms4 t) fullShare (k0_pay5 (iblk m c 0 t) (Wc m c) (KVc m c t)) := by
  unfold Dat.leavesExact; rw [live 4 t, after_4]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 64 := lt_of_lt_of_eq t.isLt N64
  have hKt : KVc m c ⟨t.val, t.isLt⟩ = KVc m c t := rfl
  rw [hKt]
  by_cases hX : t.val % 8 = 0
  · have hb : KVc m c t = k0_pay3 (iblk m c 1 t) := by unfold KVc; rw [base_self t hX]
    by_cases hW : t.val % 64 = 0
    · -- the first point of the grid
      have hz : t.val = 0 := by omega
      have e0 : t0 = t := Fin.ext hz.symm
      have hw : Wc m c = k0_pay2 (iblk m c 2 t) := by unfold Wc; rw [e0]
      rw [hb, hw, PhiS_castSucc m c t, PhiS_zero m c _ _ hz]
      iintro ⟨⟨HS0, HS1⟩, Ho, ⟨%d0, H0⟩, ⟨%d1, H1⟩, ⟨%d2, H2⟩, ⟨%d3, H3⟩, ⟨%d4, H4⟩⟩
      iapply (runA c (grid0.coords t) (ms0 t) (hs0 t) (ms1 t) (hs1 t) (ms2 t) (hs2 t) (ms3 t) (hs3 t) (ms4 t) (hs4 t) scM0 (Memref.isWhole_whole _) scM1 (Memref.isWhole_whole _)
        ((hcondW t).mpr hW) ((hcondX t).mpr hX) (iblk m c 0 t) (iblk m c 1 t) (iblk m c 2 t) Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
    · -- the first tile of a later batch
      have hz : t.val ≠ 0 := by omega
      rw [hb, PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩⟩
      iapply (runB c (grid0.coords t) (ms0 t) (hs0 t) (ms1 t) (hs1 t) (ms2 t) (hs2 t) (ms3 t) (hs3 t) (ms4 t) (hs4 t) scM0 (Memref.isWhole_whole _) scM1 (Memref.isWhole_whole _)
        (fun h => hW ((hcondW t).mp h)) ((hcondX t).mpr hX) (iblk m c 0 t) (iblk m c 1 t) (iblk m c 2 t) (Wc m c) Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
  · -- a later tile of a batch
    have hz : t.val ≠ 0 := by omega
    have hp : t.val - 1 < cfg0.N := Nat.lt_of_le_of_lt (Nat.sub_le _ _) t.isLt
    have hk : KVc m c ⟨t.val - 1, hp⟩ = KVc m c t := by unfold KVc; rw [base_pred t hX hp]
    rw [PhiS_castSucc m c t, PhiS_pos m c _ _ hz, hk]
    iintro ⟨⟨HS0, HS1⟩, Ho, ⟨%d0, H0⟩, ⟨%d1, H1⟩, ⟨%d2, H2⟩, ⟨%d3, H3⟩, ⟨%d4, H4⟩⟩
    iapply (runC c (grid0.coords t) (ms0 t) (hs0 t) (ms1 t) (hs1 t) (ms2 t) (hs2 t) (ms3 t) (hs3 t) (ms4 t) (hs4 t) scM0 (Memref.isWhole_whole _) scM1 (Memref.isWhole_whole _)
      (fun h => hX (by have := (hcondW t).mp h; omega)) (fun h => hX ((hcondX t).mp h)) (iblk m c 0 t) (iblk m c 1 t) (iblk m c 2 t) (KVc m c t) (Wc m c) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The run of the whole program. The program is the one pipelined call. Two of its windows read the same argument
  array (the query tile and the batch slab are both blocks of x), so at entry that array's holding is split in two
  halves, one per window; the weight matrix and the two results are held outright. The kernel's two scratch buffers
  are handed to the body at anything and taken back at anything. Every weakly fair execution then terminates
  without a fault, and every windowed array ends at what the write-backs of the grid points leave in it; an input
  array is never written back, so it ends as it began.
-/
import proofs.«106206_j36361193128336_2_alg».proof.Proof.KI.Body
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays at entry: x's buffer, held whole, gives each of its two windows one half; the others are held
    outright. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hF : ∀ w, (dats m 0 c).arrAt w 0 = V m c (Pipeline.arrRef spec0 w) := fun w => A_eq m c w
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  have harrs : (dats m 0 c).arrays (fun w => (dats m 0 c).arrAt w 0)
      = bigSep Finset.univ fun w : Fin cfg0.W =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; beta_reduce; rw [hF w]
  rw [harrs]
  unfold Pipeline.arrBufs
  rw [show ∀ Φ : Ref sig .tc → sProp 𝕄, bigSep (Finset.univ.image (Pipeline.arrRef spec0)) Φ
      = iprop(Φ main_arg0 ∗ Φ main_arg1 ∗ Φ main_v0_0 ∗ Φ main_v0_1) from
    fun Φ => bigSep_eq_bigSepL_of_eq [main_arg0, main_arg1, main_v0_0, main_v0_1] (by decide) (by decide) Φ, bigSep_W0]
  simp only [hs0, hs1, hs2, hs3, hs4]
  iintro ⟨Hx, Hw, Hc, Ha⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [Hw]; · iexact Hw
  isplitl [Hc]; · iexact Hc
  iexact Ha

/-- No other buffer of the program bypasses the call. -/
theorem hX (c : Dev nD) :
    (Pipeline.unscopedRest (Ix := Unit) (Name := ℕ) (U := UR sig nD τ) (Lvl := ℕ) spec0 c (V m c) : sProp 𝕄) ⊢ iprop(iprop(emp) ∗ iprop(emp)) := by
  rw [unscopedRest0_eq]
  iintro H
  isplitl [H]; · iexact H
  iempintro

/-- The scratch buffers, at anything, are what the body holds before the first point. -/
theorem hin (c : Dev nD) :
    iprop(iprop(emp) ∗ Pipeline.scopedRest (Ix := Unit) (Name := ℕ) (U := UR sig nD τ) (Lvl := ℕ) spec0 c) ⊢ (dats m 0 c).Φ 0 := by
  rw [show (dats m 0 c).Φ 0 = PhiS m c 0 (Nat.zero_le _) from rfl, PhiS_zero m c 0 _ rfl, scopedRest0_eq]
  simp only [scM0, scM1, owns_whole]
  iintro ⟨-, H0, H1⟩
  isplitl [H0]; · iexact H0
  iexact H1

/-- After the last point they are given back, their contents forgotten. -/
theorem hout (c : Dev nD) :
    (dats m 0 c).Φ (Fin.last cfg0.N) ⊢ iprop(iprop(emp) ∗ Pipeline.scopedRest (Ix := Unit) (Name := ℕ) (U := UR sig nD τ) (Lvl := ℕ) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N64; omega), scopedRest0_eq]
  simp only [scM0, scM1, owns_whole]
  iintro ⟨H0, H1⟩
  isplitr [H0 H1]; · iempintro
  isplitl [H0]; · iexists _; iexact H0
  iexists _; iexact H1

set_option backward.isDefEq.respectTransparency.types false in
/-- Every weakly fair execution of the program terminates, nothing faulting, and every windowed array ends at
    what the proof data computes for it. -/
theorem run_main : θ_run defs (onTc (τ := τ) (main (F := F))) ⟨m, fun _ => 0, ρ⟩
    (fun r => ∀ c : Dev nD, ∀ w : Fin cfg0.W, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m)
    (hmain := Pipeline.hmain_region cfgs 0 defs₀ Variants.none m main (fun _ => rfl))
    (hsplit := hsplit m)
    (X := fun _ => iprop(emp)) (Y := fun _ => iprop(emp)) (Z := fun _ => iprop(emp))
    (hX := hX m)
    (hin := hin m) (hout := hout m)
    (QY := fun _ _ => True)
    (hY := fun c s' => by
      iintro ⟨-, -, HSI⟩; imodintro
      isplitr [HSI]; · ipureintro; trivial
      iexact HSI)
    (hQ := fun s h c w => (h c).1 w)

/-- The frame: the program runs to the end and its two arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 0).trans (((dats m 0 c).arrAt_in 0 rfl _).trans (A_eq m c 0)),
     ((h c) 2).trans (((dats m 0 c).arrAt_in 2 rfl _).trans (A_eq m c 2))⟩) (run_main m ρ)

end Cert.KernelIdeal.Hand

end
-- ==== Proof.AttnSpec.lean ====
/-
  Bilinear self-attention on the extended reals, index by index.

  For an input x of shape [8, 2048, 1024] and a square weight W of shape [1024, 1024]:
    projected queries   xw[b, s, k] = Σ_h x[b, s, h] · W[h, k]
    scores              sc[b, s, t] = Σ_k xw[b, s, k] · x[b, t, k]
    row maximum         mx[b, s]    = the fold of max over t of sc[b, s, t], started from the value of the
                                      single-precision word 0xFF800000 (minus infinity)
    exponentials        p[b, s, t]  = exp (sc[b, s, t] − mx[b, s])
    row sums            l[b, s]     = Σ_t p[b, s, t]
    attention weights   a[b, s, t]  = p[b, s, t] / l[b, s]
    context             c[b, s, h]  = Σ_t a[b, s, t] · x[b, t, h]
  The two results are the attention weights, of shape [8, 2048, 2048], and the context, of shape
  [8, 2048, 1024]. Every sum is a finite sum of extended reals in the order of its index type; the quotient
  and the exponential are the extended-real operations with their corners. Depends on no program.
-/
import Idealize.ShloMosaic.PureOps.Ideal
import Idealize.ShloMosaic.Lib.ValueIdx
import Mathlib.Data.Finset.Fold

noncomputable section

open scoped BigOperators

namespace Cert.BilinearAttention

open Idealize.ShloMosaic Idealize.ShloMosaic.ValueIdx

/-- The input: eight sequences of 2048 rows of 1024 features. -/
abbrev Input : Type := FVec Ideal ⟨3, ![8, 2048, 1024]⟩ .f32
/-- The square weight of the bilinear form. -/
abbrev Weight : Type := FVec Ideal ⟨2, ![1024, 1024]⟩ .f32

/-- The value of the single-precision word 0xFF800000, minus infinity, from which a row's maximum is folded. -/
abbrev negInf : EReal := Ideal.ofBits .f32 0xFF800000#32

/-- Projected queries: row s of sequence b times the weight, at column k. -/
def proj (x : Input) (W : Weight) (b : Fin 8) (s : Fin 2048) (k : Fin 1024) : EReal :=
  ∑ h : Fin 1024, x (ix3 b s h) * W (ix2 h k)

/-- Scores: the projected query s against row t of the same sequence. -/
def score (x : Input) (W : Weight) (b : Fin 8) (s t : Fin 2048) : EReal :=
  ∑ k : Fin 1024, proj x W b s k * x (ix3 b t k)

/-- The maximum of row s of the scores, folded from minus infinity. -/
def rowMax (x : Input) (W : Weight) (b : Fin 8) (s : Fin 2048) : EReal :=
  (Finset.univ : Finset (Fin 2048)).fold max negInf fun t => score x W b s t

/-- The exponential of a score less its row's maximum. -/
def expo (x : Input) (W : Weight) (b : Fin 8) (s t : Fin 2048) : EReal :=
  Ideal.exp (score x W b s t - rowMax x W b s)

/-- The sum of row s of the exponentials. -/
def rowSum (x : Input) (W : Weight) (b : Fin 8) (s : Fin 2048) : EReal :=
  ∑ t : Fin 2048, expo x W b s t

/-- The attention weight of query s on row t: the exponential over its row's sum. -/
def attn (x : Input) (W : Weight) (b : Fin 8) (s t : Fin 2048) : EReal :=
  Ideal.div (expo x W b s t) (rowSum x W b s)

/-- The context: the attention weights of query s against the rows of the sequence, at feature h. -/
def ctx (x : Input) (W : Weight) (b : Fin 8) (s : Fin 2048) (h : Fin 1024) : EReal :=
  ∑ t : Fin 2048, attn x W b s t * x (ix3 b t h)

/-- The attention weights as one array of shape [8, 2048, 2048]. -/
def Gattn (x : Input) (W : Weight) : (⟨3, ![8, 2048, 2048]⟩ : Shape).Idx → EReal :=
  fun j => attn x W (j 0) (j 1) (j 2)

/-- The context as one array of shape [8, 2048, 1024]. -/
def Gctx (x : Input) (W : Weight) : (⟨3, ![8, 2048, 1024]⟩ : Shape).Idx → EReal :=
  fun j => ctx x W (j 0) (j 1) (j 2)

/-- The attention weights at explicit coordinates. -/
theorem Gattn_ix3 (x : Input) (W : Weight) (b : Fin 8) (s t : Fin 2048) :
    Gattn x W (ix3 b s t) = attn x W b s t := rfl

/-- The context at explicit coordinates. -/
theorem Gctx_ix3 (x : Input) (W : Weight) (b : Fin 8) (s : Fin 2048) (h : Fin 1024) :
    Gctx x W (ix3 b s h) = ctx x W b s h := rfl

/-- A fold of max started from a value is at least that value, so taking the maximum with it again changes
    nothing. -/
theorem max_fold_max_self {ι : Type} (s : Finset ι) (b : EReal) (f : ι → EReal) :
    max b (s.fold max b f) = s.fold max b f :=
  max_eq_right ((Finset.le_fold_max b).mpr (Or.inl le_rfl))

end Cert.BilinearAttention

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibDropUnit.lean ====
/-
  A leading axis of extent one cast away, read at an index.

  A block of shape [1, A, B] reshaped to [A, B] keeps its elements in row-major order, so entry `(p, q)` of
  the reshaped block is entry `(0, p, q)` of the block. Any extents, any element type, no program needed.
-/
import Idealize.ShloMosaic.Lib.Pipeline.Value
import Idealize.ShloMosaic.Lib.ValueIdx

namespace Cert.DropUnit

open Idealize.ShloMosaic Idealize.ShloMosaic.ValueIdx

/-- An array of shape [1, A, B] with the unit axis cast away reads, at `(p, q)`, the array at `(0, p, q)`. -/
theorem dropUnit_apply {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 0 p q) := by
  refine shapeCast_apply x h (ix2 p q) (ix3 0 p q) ?_
  rw [Shape.rowMajor_val_three, Shape.rowMajor_val_two]
  show ((0 : Fin 1).val * A + p.val) * B + q.val = p.val * B + q.val
  simp

end Cert.DropUnit
-- ==== Proof.LibAddUnit.lean ====
/-
  A leading axis of extent one added, read at an index.

  An array of shape [A, B] reshaped to [1, A, B] keeps its elements in row-major order, so entry `(0, p, q)` of the
  reshaped block is entry `(p, q)` of the array. Any extents, any element type, no program needed.
-/
import Idealize.ShloMosaic.Lib.Pipeline.Value
import Idealize.ShloMosaic.Lib.ValueIdx

namespace Cert.AddUnit

open Idealize.ShloMosaic Idealize.ShloMosaic.ValueIdx

/-- An array of shape [A, B] given a leading unit axis reads, at `(u, p, q)`, the array at `(p, q)`. -/
theorem addUnit_apply {α : Type} {A B : Nat} (x : (⟨2, ![A, B]⟩ : Shape).Idx → α)
    (h : (⟨2, ![A, B]⟩ : Shape).ShapeCasts ⟨3, ![1, A, B]⟩) (u : Fin 1) (p : Fin A) (q : Fin B) :
    shapeCast ⟨3, ![1, A, B]⟩ x h (ix3 u p q) = x (ix2 p q) := by
  refine shapeCast_apply x h (ix3 u p q) (ix2 p q) ?_
  rw [Shape.rowMajor_val_three, Shape.rowMajor_val_two]
  show p.val * B + q.val = (u.val * A + p.val) * B + q.val
  have hu : u.val = 0 := by omega
  rw [hu]
  simp

end Cert.AddUnit
-- ==== Proof.AttnKernelTile.lean ====
/-
  One grid point of the kernel computes one tile of bilinear self-attention.

  At grid point (b, q) the body holds the query block v8[0, i, h] = x[b, 256 q + i, h] (256 rows), the weight
  v11 = W and the whole batch slab v14[t, k] = x[b, t, k]. Its arithmetic is, row by row: the query block times
  the weight (the projected queries of rows 256 q + i), that product against the slab contracting the feature
  axis of both (the scores of those rows against every row t), the row maximum folded from minus infinity, the
  exponential of the difference, the row sum from zero, the quotient (the attention weights of those rows), and
  the weights times the slab (the context of those rows). Changes of float format are the identity on the
  extended reals. Each step is the specification's term for that step at row 256 q + i.
-/
import proofs.«106206_j36361193128336_2_alg».proof.Proof.Gen.KernelIdeal.Skeleton
import proofs.«106206_j36361193128336_2_alg».proof.Proof.AttnSpec
import proofs.«106206_j36361193128336_2_alg».proof.Proof.LibPlainDot
import proofs.«106206_j36361193128336_2_alg».proof.Proof.LibDotNT
import proofs.«106206_j36361193128336_2_alg».proof.Proof.LibAxisFold
import proofs.«106206_j36361193128336_2_alg».proof.Proof.LibColumn
import proofs.«106206_j36361193128336_2_alg».proof.Proof.LibDropUnit
import proofs.«106206_j36361193128336_2_alg».proof.Proof.LibAddUnit

noncomputable section

open scoped BigOperators

namespace Cert.BilinearAttention.Kernel

open Cert.KernelIdeal Cert.KernelIdeal.Gen Idealize.ShloMosaic Idealize.ShloMosaic.ValueIdx
open Cert.BilinearAttention

/-- Row i of query tile q among the 2048 rows of a sequence: 256 q + i. -/
abbrev tileRow (q : Fin 8) (i : Fin 256) : Fin 2048 :=
  ⟨256 * q.val + i.val, by have := q.isLt; have := i.isLt; omega⟩

/-- The exponential of the vector unit, at an index. -/
theorem exp_apply {s : Shape} {φ : FTy} (a : FVec Ideal s φ) (i : s.Idx) : exp a i = Ideal.exp (a i) := rfl

/-! ### The three products' dimension numbers -/

theorem plain_proj : PlainDot.IsPlain dot_S256x1024_S1024x1024_S256x1024_1_0_0_1_n_n := ⟨rfl, rfl, rfl, rfl, rfl, rfl⟩
theorem nt_scores : DotNT.IsNT dot_S256x1024_S2048x1024_S256x2048_1_1_0_0_n_n := ⟨rfl, rfl, rfl, rfl, rfl, rfl⟩
theorem plain_ctx : PlainDot.IsPlain dot_S256x2048_S2048x1024_S256x1024_1_0_0_1_n_n := ⟨rfl, rfl, rfl, rfl, rfl, rfl⟩

/-! ### The scores of a tile -/

/-- The body's scores: the query block times the weight, then against the slab. -/
def scoresTile (v8 : FVec Ideal S1x256x1024 .f32) (v11 : FVec Ideal S1024x1024 .bf16) (v14 : FVec Ideal S2048x1024 .bf16) :
    FVec Ideal S256x2048 .f32 :=
  have v9 : FVec Ideal S256x1024 .f32 := shapeCast S256x1024 v8 shapeCasts_S1x256x1024_S256x1024
  have v10 : FVec Ideal S256x1024 .bf16 := truncf .bf16 v9 bitsLt_bf16_f32
  have cst : FVec Ideal S256x1024 .f32 := constant S256x1024 .f32 0x00000000#32
  have v12 : FVec Ideal S256x1024 .f32 := matmul dot_S256x1024_S1024x1024_S256x1024_1_0_0_1_n_n none v10 v11 cst
  have v13 : FVec Ideal S256x1024 .bf16 := truncf .bf16 v12 bitsLt_bf16_f32
  have cst_10 : FVec Ideal S256x2048 .f32 := constant S256x2048 .f32 0x00000000#32
  have v15 : FVec Ideal S256x2048 .f32 := matmul dot_S256x1024_S2048x1024_S256x2048_1_1_0_0_n_n none v13 v14 cst_10
  v15

/-- The maximum of each row of a [256, 2048] array, folded from minus infinity. -/
def rowMaxVec (v : FVec Ideal S256x2048 .f32) : FVec Ideal S256 .f32 :=
  multiReduction .maximumf [1] S256 v 0xFF800000#32 reduces_S256x2048_S256 (.inl rfl) rfl

/-- The sum of each row of a [256, 2048] array, from zero. -/
def rowSumVec (v : FVec Ideal S256x2048 .f32) : FVec Ideal S256 .f32 :=
  multiReduction .add [1] S256 v 0x00000000#32 reduces_S256x2048_S256 (.inl rfl) rfl

/-- A vector of 256 entries as a column, repeated across 2048 columns. -/
def acrossRow (u : FVec Ideal S256 .f32) : FVec Ideal S256x2048 .f32 :=
  broadcastTo S256x2048 (shapeCast S256x1 u shapeCasts_S256_S256x1) broadcasts_S256x1_S256x2048

/-- The softmax along the rows of a [256, 2048] array as the vector unit spells it: the row maximum from minus
    infinity as a column across the row, the exponential of the difference, the row sum from zero as a column
    across the row, the quotient. -/
def softmaxRows (v15 : FVec Ideal S256x2048 .f32) : FVec Ideal S256x2048 .f32 :=
  have v18 : FVec Ideal S256x2048 .f32 := acrossRow (rowMaxVec v15)
  have v20 : FVec Ideal S256x2048 .f32 := exp (subf v15 v18)
  have v23 : FVec Ideal S256x2048 .f32 := acrossRow (rowSumVec v20)
  divf v20 v23

theorem rowMaxVec_at (v : FVec Ideal S256x2048 .f32) (i : Fin 256) :
    rowMaxVec v (ix1 i) = (Finset.univ : Finset (Fin 2048)).fold max negInf fun c => v (ix2 i c) := by
  unfold rowMaxVec
  exact AxisFold.row_max v _ _ _ _ i

theorem rowSumVec_at (v : FVec Ideal S256x2048 .f32) (i : Fin 256) :
    rowSumVec v (ix1 i) = ∑ c : Fin 2048, v (ix2 i c) := by
  unfold rowSumVec
  exact AxisFold.row_sum v _ _ _ i

theorem acrossRow_at (u : FVec Ideal S256 .f32) (i : Fin 256) (c : Fin 2048) : acrossRow u (ix2 i c) = u (ix1 i) := by
  unfold acrossRow
  exact (Column.broadcastTo_a1_ab_apply _ _ i c).trans (Column.shapeCast_a_a1_apply _ _ i 0)

/-- The body's attention tile is the row softmax of its scores. -/
theorem pay4_eq (v8 : Vec Ideal S1x256x1024 .f32) (v11 : Vec Ideal S1024x1024 .bf16) (v14 : Vec Ideal S2048x1024 .bf16) :
    k0_pay4 (F := Ideal) v8 v11 v14 = softmaxRows (scoresTile v8 v11 v14) := rfl

/-- The row softmax at (i, t), as one function of row i. -/
theorem softmaxRows_at (v : FVec Ideal S256x2048 .f32) (i : Fin 256) (t : Fin 2048) :
    softmaxRows v (ix2 i t) =
      Ideal.div (Ideal.exp (v (ix2 i t) - (Finset.univ : Finset (Fin 2048)).fold max negInf fun c => v (ix2 i c)))
        (∑ c : Fin 2048, Ideal.exp (v (ix2 i c) - (Finset.univ : Finset (Fin 2048)).fold max negInf fun c' => v (ix2 i c'))) := by
  unfold softmaxRows
  simp only [divf_apply, exp_apply, subf_apply, acrossRow_at, rowSumVec_at, rowMaxVec_at]

section
variable {x : Input} {W : Weight} {b q : Fin 8}
  {v8 : Vec Ideal S1x256x1024 .f32} {v11 : Vec Ideal S1024x1024 .bf16} {v14 : Vec Ideal S2048x1024 .bf16}
  (h8 : ∀ (i : Fin 256) (h : Fin 1024), v8 (ix3 (0 : Fin 1) i h) = x (ix3 b (tileRow q i) h))
  (h11 : ∀ (h k : Fin 1024), v11 (ix2 h k) = W (ix2 h k))
  (h14 : ∀ (t : Fin 2048) (k : Fin 1024), v14 (ix2 t k) = x (ix3 b t k))
include h8 h11 h14

/-- The body's scores at (i, t) are the scores of row 256 q + i against row t. -/
theorem scoresTile_at (i : Fin 256) (t : Fin 2048) :
    scoresTile v8 v11 v14 (ix2 i t) = score x W b (tileRow q i) t := by
  unfold scoresTile
  rw [DotNT.matmul_zero_apply nt_scores]
  unfold score
  refine Finset.sum_congr rfl fun k _ => ?_
  rw [truncf_apply, PlainDot.matmul_zero_apply plain_proj, h14]
  unfold proj
  refine congrArg (· * x (ix3 b t k)) (Finset.sum_congr rfl fun h _ => ?_)
  rw [truncf_apply, DropUnit.dropUnit_apply, h8, h11]

/-- The body's attention tile at (i, t) is the attention weight of row 256 q + i on row t. -/
theorem pay4_at (i : Fin 256) (t : Fin 2048) :
    k0_pay4 (F := Ideal) v8 v11 v14 (ix2 i t) = attn x W b (tileRow q i) t := by
  rw [pay4_eq, softmaxRows_at]
  unfold attn rowSum expo rowMax
  simp only [scoresTile_at h8 h11 h14]

/-- What the body stores to the attention block: the attention weights of rows 256 q + i. -/
theorem attnTile_at (i : Fin 256) (t : Fin 2048) :
    k0_pay5 (F := Ideal) v8 v11 v14 (ix3 (0 : Fin 1) i t) = Gattn x W (ix3 b (tileRow q i) t) := by
  unfold k0_pay5
  rw [AddUnit.addUnit_apply, pay4_at h8 h11 h14]
  rfl

/-- The body's last product at (i, h) is the context of row 256 q + i at feature h. -/
theorem pay6_at (i : Fin 256) (h : Fin 1024) :
    k0_pay6 (F := Ideal) v8 v11 v14 (ix2 i h) = ctx x W b (tileRow q i) h := by
  unfold k0_pay6
  rw [PlainDot.matmul_zero_apply plain_ctx]
  unfold ctx
  exact Finset.sum_congr rfl fun t _ => by rw [truncf_apply, pay4_at h8 h11 h14, h14]

/-- What the body stores to the context block: the context of rows 256 q + i. -/
theorem ctxTile_at (i : Fin 256) (h : Fin 1024) :
    k0_pay1 (F := Ideal) (k0_pay6 (F := Ideal) v8 v11 v14) (ix3 (0 : Fin 1) i h) = Gctx x W (ix3 b (tileRow q i) h) := by
  unfold k0_pay1
  rw [AddUnit.addUnit_apply, pay6_at h8 h11 h14]
  rfl

end

end Cert.BilinearAttention.Kernel

end
-- ==== Proof.AttnScratch.lean ====
/-
  What the body keeps in its two scratch buffers. The weight block with its float format changed and a cast to
  its own shape is the weight block; the batch slab [1, 2048, 1024] with its unit axis cast away and its float
  format changed is the slab, entry (t, k) being entry (0, t, k). On the extended reals a change of float format
  is the identity.
-/
import proofs.«106206_j36361193128336_2_alg».proof.Proof.Gen.KernelIdeal.Skeleton
import proofs.«106206_j36361193128336_2_alg».proof.Proof.LibDropUnit

noncomputable section

namespace Cert.BilinearAttention.Kernel

open Cert.KernelIdeal Cert.KernelIdeal.Gen Idealize.ShloMosaic Idealize.ShloMosaic.ValueIdx

/-- The stored weight block is the weight block. -/
theorem weightScratch_at (v : Vec Ideal S1024x1024 .f32) (h k : Fin 1024) :
    k0_pay2 (F := Ideal) v (ix2 h k) = v (ix2 h k) := by
  unfold k0_pay2
  rw [shapeCast_self]
  rfl

/-- The stored slab at (t, k) is the batch block at (0, t, k). -/
theorem slabScratch_at (v : Vec Ideal S1x2048x1024 .f32) (t : Fin 2048) (k : Fin 1024) :
    k0_pay3 (F := Ideal) v (ix2 t k) = v (ix3 (0 : Fin 1) t k) := by
  unfold k0_pay3
  rw [shapeCast_self, truncf_apply, DropUnit.dropUnit_apply]

end Cert.BilinearAttention.Kernel

end
-- ==== Proof.KI.Value.lean ====
/-
  From the grid points' write-backs to the two result arrays, at the extended reals.
  Point t is batch b = t / 8, query tile q = t % 8. Its query block is x[b, 256 q + i, h], its slab block is
  x[b, t', k], its weight block is all of W; the scratch caches hold the slab and the weights unchanged (a change of
  float format is the identity on the extended reals). So what the point writes back into the attention array is the
  block (b, q) of ONE function of x and W, the attention weights, and likewise for the context array. The blocks of
  the 64 points tile both arrays: row s of batch b belongs to point 8 b + s / 256. Hence each array ends as that
  function.
-/
import proofs.«106206_j36361193128336_2_alg».proof.Proof.KI.Launch
import proofs.«106206_j36361193128336_2_alg».proof.Proof.AttnKernelTile
import proofs.«106206_j36361193128336_2_alg».proof.Proof.AttnScratch
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.BilinearAttention

local notation "𝕄" => MT nD τ sig Unit (Elt Ideal) ℕ (UR sig nD τ) ℕ

variable (m : (ℓ : Loc nD τ sig) → Buf (Elt Ideal) ℓ) (ρ : Dev nD → PrngReg)

/-- The printed index maps over the grid: every window's block index at point t, in closed form. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-- The two argument arrays as the call finds them. -/
abbrev xArr (c : Dev nD) : Input := V m c main_arg0
abbrev wArr (c : Dev nD) : Weight := V m c main_arg1

/-- Point t's batch and query tile. -/
def bOf (t : Fin cfg0.N) : Fin 8 := ⟨t.val / 8, by have h : t.val < 64 := lt_of_lt_of_eq t.isLt N64; omega⟩
def qOf (t : Fin cfg0.N) : Fin 8 := ⟨t.val % 8, by omega⟩

/-- The query block at point t is rows 256 q .. 256 q + 255 of batch b. -/
theorem qblock_at (c : Dev nD) (t : Fin cfg0.N) (i : Fin 256) (h : Fin 1024) :
    iblk m c 0 t (ix3 (0 : Fin 1) i h) = xArr m c (ix3 (bOf t) (Kernel.tileRow (qOf t) i) h) := by
  obtain ⟨e0, e1, e2, -⟩ := idx_facts t
  show V m c main_arg0 (((cfg0.win 0).blk t).view.emb (ix3 (0 : Fin 1) i h)) = _
  refine congrArg (V m c main_arg0) ?_
  funext a; apply Fin.ext
  match a with
  | ⟨0, _⟩ => show win0_0.index t (0 : Fin 3) * 1 + 1 * 0 = t.val / 8; omega
  | ⟨1, _⟩ => show win0_0.index t (1 : Fin 3) * 256 + 1 * i.val = 256 * (t.val % 8) + i.val; omega
  | ⟨2, _⟩ => show win0_0.index t (2 : Fin 3) * 1024 + 1 * h.val = h.val; omega

/-- The cached slab at point t is batch b of x. -/
theorem slab_at (c : Dev nD) (t : Fin cfg0.N) (s : Fin 2048) (k : Fin 1024) :
    KVc m c t (ix2 s k) = xArr m c (ix3 (bOf t) s k) := by
  obtain ⟨-, -, -, e0, e1, e2, -⟩ := idx_facts (base t)
  have hb : (base t).val = t.val / 8 * 8 := base_val t
  unfold KVc
  rw [Kernel.slabScratch_at]
  show V m c main_arg0 (((cfg0.win 1).blk (base t)).view.emb (ix3 (0 : Fin 1) s k)) = _
  refine congrArg (V m c main_arg0) ?_
  funext a; apply Fin.ext
  match a with
  | ⟨0, _⟩ => show win0_1.index (base t) (0 : Fin 3) * 1 + 1 * 0 = t.val / 8; omega
  | ⟨1, _⟩ => show win0_1.index (base t) (1 : Fin 3) * 2048 + 1 * s.val = s.val; omega
  | ⟨2, _⟩ => show win0_1.index (base t) (2 : Fin 3) * 1024 + 1 * k.val = k.val; omega

/-- The cached weights are W. -/
theorem weights_at (c : Dev nD) (h k : Fin 1024) : Wc m c (ix2 h k) = wArr m c (ix2 h k) := by
  obtain ⟨-, -, -, -, -, -, e0, e1, -⟩ := idx_facts t0
  unfold Wc
  rw [Kernel.weightScratch_at]
  show V m c main_arg1 (((cfg0.win 2).blk t0).view.emb (ix2 h k)) = _
  refine congrArg (V m c main_arg1) ?_
  funext a; apply Fin.ext
  match a with
  | ⟨0, _⟩ => show win0_2.index t0 (0 : Fin 2) * 1024 + 1 * h.val = h.val; omega
  | ⟨1, _⟩ => show win0_2.index t0 (1 : Fin 2) * 1024 + 1 * k.val = k.val; omega

/-! ## The attention array (window 4) -/

/-- What point t writes back is block t of the attention weights. -/
theorem flushed4_eq (c : Dev nD) (t : Fin cfg0.N) :
    (dats m 0 c).flushed 4 t = ((cfg0.win 4).blk t).view.read (Elt Ideal) (Gattn (xArr m c) (wArr m c)) := by
  show (cfg0.win 4).cut (grid0.coords t) ((dats m 0 c).after 4 t) = _
  rw [after_4]
  obtain ⟨-, -, -, -, -, -, -, -, -, -, -, e0, e1, e2⟩ := idx_facts t
  funext y
  obtain ⟨u, i, s, rfl⟩ : ∃ (u : Fin 1) (i : Fin 256) (s : Fin 2048), y = ix3 u i s := ⟨y 0, y 1, y 2, eq_ix3 y⟩
  obtain rfl : u = 0 := Subsingleton.elim _ _
  show k0_pay5 (iblk m c 0 t) (Wc m c) (KVc m c t) (ix3 (0 : Fin 1) i s)
    = Gattn (xArr m c) (wArr m c) (((cfg0.win 4).blk t).view.emb (ix3 (0 : Fin 1) i s))
  rw [Kernel.attnTile_at (qblock_at m c t) (weights_at m c) (slab_at m c t) i s]
  refine congrArg (Gattn (xArr m c) (wArr m c)) ?_
  funext a; apply Fin.ext
  match a with
  | ⟨0, _⟩ => show t.val / 8 = win0_4.index t (0 : Fin 3) * 1 + 1 * 0; omega
  | ⟨1, _⟩ => show 256 * (t.val % 8) + i.val = win0_4.index t (1 : Fin 3) * 256 + 1 * i.val; omega
  | ⟨2, _⟩ => show s.val = win0_4.index t (2 : Fin 3) * 2048 + 1 * s.val; omega

theorem mem_blk4 (t : Fin cfg0.N) (i : S8x2048x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v0_1).slice (win0_4.rect t)).set ↔ _
  rw [View.set_slice_whole, Rect.mem_set_unit]
  exact Iff.rfl

/-- Every entry of the attention array is in some point's block. -/
theorem cover4 (i : S8x2048x2048.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 2048 := (i 2).isLt
  let t : Fin cfg0.N := ⟨8 * (i 0).val + (i 1).val / 256, lt_of_lt_of_eq (by omega : 8 * (i 0).val + (i 1).val / 256 < 64) N64.symm⟩
  have tv : t.val = 8 * (i 0).val + (i 1).val / 256 := rfl
  obtain ⟨-, -, -, -, -, -, -, -, -, -, -, e0, e1, e2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- The attention array after the run. -/
theorem final4 (c : Dev nD) : (dats m 0 c).arrAt 4 cfg0.N = Gattn (xArr m c) (wArr m c) :=
  (dats m 0 c).arrAt_eq_of_cover 4 _ (fun t _ => flushed4_eq m c t) cover4

/-! ## The context array (window 3) -/

/-- What point t writes back is block t of the context. -/
theorem flushed3_eq (c : Dev nD) (t : Fin cfg0.N) :
    (dats m 0 c).flushed 3 t = ((cfg0.win 3).blk t).view.read (Elt Ideal) (Gctx (xArr m c) (wArr m c)) := by
  show (cfg0.win 3).cut (grid0.coords t) ((dats m 0 c).after 3 t) = _
  rw [after_3]
  obtain ⟨-, -, -, -, -, -, -, -, e0, e1, e2, -⟩ := idx_facts t
  funext y
  obtain ⟨u, i, h, rfl⟩ : ∃ (u : Fin 1) (i : Fin 256) (h : Fin 1024), y = ix3 u i h := ⟨y 0, y 1, y 2, eq_ix3 y⟩
  obtain rfl : u = 0 := Subsingleton.elim _ _
  show k0_pay1 (k0_pay6 (iblk m c 0 t) (Wc m c) (KVc m c t)) (ix3 (0 : Fin 1) i h)
    = Gctx (xArr m c) (wArr m c) (((cfg0.win 3).blk t).view.emb (ix3 (0 : Fin 1) i h))
  rw [Kernel.ctxTile_at (qblock_at m c t) (weights_at m c) (slab_at m c t) i h]
  refine congrArg (Gctx (xArr m c) (wArr m c)) ?_
  funext a; apply Fin.ext
  match a with
  | ⟨0, _⟩ => show t.val / 8 = win0_3.index t (0 : Fin 3) * 1 + 1 * 0; omega
  | ⟨1, _⟩ => show 256 * (t.val % 8) + i.val = win0_3.index t (1 : Fin 3) * 256 + 1 * i.val; omega
  | ⟨2, _⟩ => show h.val = win0_3.index t (2 : Fin 3) * 1024 + 1 * h.val; omega

theorem mem_blk3 (t : Fin cfg0.N) (i : S8x2048x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v0_0).slice (win0_3.rect t)).set ↔ _
  rw [View.set_slice_whole, Rect.mem_set_unit]
  exact Iff.rfl

/-- Every entry of the context array is in some point's block. -/
theorem cover3 (i : S8x2048x1024.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 1024 := (i 2).isLt
  let t : Fin cfg0.N := ⟨8 * (i 0).val + (i 1).val / 256, lt_of_lt_of_eq (by omega : 8 * (i 0).val + (i 1).val / 256 < 64) N64.symm⟩
  have tv : t.val = 8 * (i 0).val + (i 1).val / 256 := rfl
  obtain ⟨-, -, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- The context array after the run. -/
theorem final3 (c : Dev nD) : (dats m 0 c).arrAt 3 cfg0.N = Gctx (xArr m c) (wArr m c) :=
  (dats m 0 c).arrAt_eq_of_cover 3 _ (fun t _ => flushed3_eq m c t) cover3

/-! ## The run, read -/

/-- Every weakly fair execution of the idealized kernel terminates with the context array at the context of its
    arguments, the attention array at their attention weights, and the arguments unchanged. -/
theorem run_value : θ_run defs (onTc (τ := τ) (main (F := Ideal))) ⟨m, fun _ => 0, ρ⟩ fun r => ∀ c : Dev nD,
      r.2.mem ((c.tc : Thread nD τ).loc main_v0_0) = Gctx (xArr m c) (wArr m c)
      ∧ r.2.mem ((c.tc : Thread nD τ).loc main_v0_1) = Gattn (xArr m c) (wArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c) 3).trans (final3 m c), ((h c) 4).trans (final4 m c),
     ((h c) 0).trans (((dats m 0 c).arrAt_in 0 rfl _).trans (A_eq m c 0)),
     ((h c) 2).trans (((dats m 0 c).arrAt_in 2 rfl _).trans (A_eq m c 2))⟩) (run_main m ρ)

end Cert.KernelIdeal.Hand

end
-- ==== Proof.AttnReference.lean ====
/-
  The reference program computes bilinear self-attention.

  Read one operation at a time at explicit coordinates (b, s, t): the first product is the projected queries,
  the second the scores, the reduction by max from minus infinity the row maximum (the further maximum with a
  splat of minus infinity changes nothing, a fold of max being at least its starting value), then the
  exponential of the difference, the row sum from zero, the quotient, and the last product the context. Each
  step is the specification's term for that step; no law beyond re-indexing a sum, 0 + a = a and
  max b (fold max b f) = fold max b f is used.
-/
import proofs.«106206_j36361193128336_2_alg».proof.Proof.Gen.ReferenceIdeal.Read
import proofs.«106206_j36361193128336_2_alg».proof.Proof.AttnSpec

noncomputable section

open scoped BigOperators

namespace Cert.BilinearAttention.Reference

open Cert.ReferenceIdeal Cert.ReferenceIdeal.Gen Cert.ReferenceIdeal.Read Idealize.ShloMosaic Idealize.ShloMosaic.ValueIdx
open Cert.BilinearAttention

/-! ### The operand indices of each operation, at explicit coordinates -/

theorem lidx_v0 (b : Fin 8) (s : Fin 2048) (k h : Fin 1024) : lidx_main_v0 (ix3 b s k) h = ix3 b s h :=
  funext fun a => Fin.ext (by match a with | ⟨0, _⟩ => rfl | ⟨1, _⟩ => rfl | ⟨2, _⟩ => rfl)
theorem ridx_v0 (b : Fin 8) (s : Fin 2048) (k h : Fin 1024) : ridx_main_v0 (ix3 b s k) h = ix2 h k :=
  funext fun a => Fin.ext (by match a with | ⟨0, _⟩ => rfl | ⟨1, _⟩ => rfl)
theorem lidx_v1 (b : Fin 8) (s t : Fin 2048) (k : Fin 1024) : lidx_main_v1 (ix3 b s t) k = ix3 b s k :=
  funext fun a => Fin.ext (by match a with | ⟨0, _⟩ => rfl | ⟨1, _⟩ => rfl | ⟨2, _⟩ => rfl)
theorem ridx_v1 (b : Fin 8) (s t : Fin 2048) (k : Fin 1024) : ridx_main_v1 (ix3 b s t) k = ix3 b t k :=
  funext fun a => Fin.ext (by match a with | ⟨0, _⟩ => rfl | ⟨1, _⟩ => rfl | ⟨2, _⟩ => rfl)
theorem idx_v5 (b : Fin 8) (s : Fin 2048) (u : Fin 1) : idx_main_v5 (ix3 b s u) = ix2 b s :=
  funext fun a => Fin.ext (by match a with | ⟨0, _⟩ => rfl | ⟨1, _⟩ => rfl)
theorem idx_v6 (b : Fin 8) (s t : Fin 2048) : idx_main_v6 (ix3 b s t) = ix3 b s (0 : Fin 1) :=
  funext fun a => Fin.ext (by match a with | ⟨0, _⟩ => rfl | ⟨1, _⟩ => rfl | ⟨2, _⟩ => rfl)
theorem idx_v9 (b : Fin 8) (s t : Fin 2048) : idx_main_v9 (ix2 b s) t = ix3 b s t :=
  funext fun a => Fin.ext (by match a with | ⟨0, _⟩ => rfl | ⟨1, _⟩ => rfl | ⟨2, _⟩ => rfl)
theorem idx_v10 (b : Fin 8) (s : Fin 2048) (u : Fin 1) : idx_main_v10 (ix3 b s u) = ix2 b s :=
  funext fun a => Fin.ext (by match a with | ⟨0, _⟩ => rfl | ⟨1, _⟩ => rfl)
theorem idx_v11 (b : Fin 8) (s t : Fin 2048) : idx_main_v11 (ix3 b s t) = ix3 b s (0 : Fin 1) :=
  funext fun a => Fin.ext (by match a with | ⟨0, _⟩ => rfl | ⟨1, _⟩ => rfl | ⟨2, _⟩ => rfl)
theorem lidx_v13 (b : Fin 8) (s : Fin 2048) (h : Fin 1024) (t : Fin 2048) : lidx_main_v13 (ix3 b s h) t = ix3 b s t :=
  funext fun a => Fin.ext (by match a with | ⟨0, _⟩ => rfl | ⟨1, _⟩ => rfl | ⟨2, _⟩ => rfl)
theorem ridx_v13 (b : Fin 8) (s : Fin 2048) (h : Fin 1024) (t : Fin 2048) : ridx_main_v13 (ix3 b s h) t = ix3 b t h :=
  funext fun a => Fin.ext (by match a with | ⟨0, _⟩ => rfl | ⟨1, _⟩ => rfl | ⟨2, _⟩ => rfl)

/-! ### The operations, one at a time -/

/-- The first product is the projected queries. -/
theorem v0_at (x : Input) (W : Weight) (b : Fin 8) (s : Fin 2048) (k : Fin 1024) :
    val_main_v0 (F := Ideal) x W (ix3 b s k) = proj x W b s k := by
  rw [val_main_v0_apply]
  exact Finset.sum_congr rfl fun h _ => by rw [lidx_v0, ridx_v0]

/-- The second product is the scores. -/
theorem v1_at (x : Input) (W : Weight) (b : Fin 8) (s t : Fin 2048) :
    val_main_v1 (F := Ideal) x W (ix3 b s t) = score x W b s t := by
  rw [val_main_v1_apply]
  exact Finset.sum_congr rfl fun k _ => by rw [lidx_v1, ridx_v1, v0_at]

/-- The witness that dropping the last axis of [8, 2048, 2048] leaves [8, 2048]. -/
theorem reduces_last : S8x2048x2048.Reduces [2] S8x2048 := by decide

/-- A result index (b, s) with t put back on the dropped axis is (b, s, t). -/
theorem lift_last (b : Fin 8) (s : Fin 2048) (t : Fin (S8x2048x2048.size 2)) :
    reduces_last.lift (ix2 b s) t = ix3 b s (⟨t.val, t.isLt⟩ : Fin 2048) := by
  funext c; apply Fin.ext
  fin_cases c <;> rfl

/-- The reduction by max over the last axis is the row maximum. -/
theorem v2_at (x : Input) (W : Weight) (b : Fin 8) (s : Fin 2048) :
    val_main_v2 (F := Ideal) x W (ix2 b s) = rowMax x W b s := by
  unfold val_main_v2
  rw [Host.reduce_eq_fold_single FloatOps.maximumf _ _ reducesTo_S8x2048x2048_S8x2048_d2 reduces_last h_S_]
  refine congrArg (fun f => Finset.fold max negInf f (Finset.univ : Finset (Fin 2048))) (funext fun t => ?_)
  show val_main_v1 (F := Ideal) x W (reduces_last.lift (ix2 b s) t) = score x W b s t
  rw [lift_last]
  exact v1_at x W b s t

/-- The maximum with a splat of minus infinity leaves the row maximum. -/
theorem v4_at (x : Input) (W : Weight) (b : Fin 8) (s : Fin 2048) :
    val_main_v4 (F := Ideal) x W (ix2 b s) = rowMax x W b s := by
  rw [val_main_v4_apply, val_main_v3_apply, val_main_cst_0_apply, v2_at]
  exact max_fold_max_self _ _ _

/-- The row maximum as a column, then across the row. -/
theorem v6_at (x : Input) (W : Weight) (b : Fin 8) (s t : Fin 2048) :
    val_main_v6 (F := Ideal) x W (ix3 b s t) = rowMax x W b s := by
  rw [val_main_v6_apply, idx_v6, val_main_v5_apply, idx_v5, v4_at]

/-- The exponential of a score less its row's maximum. -/
theorem v8_at (x : Input) (W : Weight) (b : Fin 8) (s t : Fin 2048) :
    val_main_v8 (F := Ideal) x W (ix3 b s t) = expo x W b s t := by
  rw [val_main_v8_apply, val_main_v7_apply, v1_at, v6_at]
  rfl

/-- The sum over the last axis from zero is the row sum. -/
theorem v9_at (x : Input) (W : Weight) (b : Fin 8) (s : Fin 2048) :
    val_main_v9 (F := Ideal) x W (ix2 b s) = rowSum x W b s := by
  rw [val_main_v9_apply, val_main_cst_1_apply, Ideal.ofBits_def, Ideal.ofBits_zero_f32, zero_add]
  exact Finset.sum_congr rfl fun t _ => by rw [idx_v9, v8_at]

/-- The row sum as a column, then across the row. -/
theorem v11_at (x : Input) (W : Weight) (b : Fin 8) (s t : Fin 2048) :
    val_main_v11 (F := Ideal) x W (ix3 b s t) = rowSum x W b s := by
  rw [val_main_v11_apply, idx_v11, val_main_v10_apply, idx_v10, v9_at]

/-- The quotient is the attention weight. -/
theorem v12_at (x : Input) (W : Weight) (b : Fin 8) (s t : Fin 2048) :
    val_main_v12 (F := Ideal) x W (ix3 b s t) = attn x W b s t := by
  rw [val_main_v12_apply, v8_at, v11_at]
  rfl

/-- The last product is the context. -/
theorem v13_at (x : Input) (W : Weight) (b : Fin 8) (s : Fin 2048) (h : Fin 1024) :
    val_main_v13 (F := Ideal) x W (ix3 b s h) = ctx x W b s h := by
  rw [val_main_v13_apply]
  exact Finset.sum_congr rfl fun t _ => by rw [lidx_v13, ridx_v13, v12_at]

/-! ### The two results as whole arrays -/

/-- The reference's attention weights are the specification's. -/
theorem attn_eq (x : Input) (W : Weight) : val_main_v12 (F := Ideal) x W = Gattn x W := by
  funext j
  obtain ⟨b, s, t, rfl⟩ : ∃ (b : Fin 8) (s t : Fin 2048), j = ix3 b s t := ⟨j 0, j 1, j 2, eq_ix3 j⟩
  exact v12_at x W b s t

/-- The reference's context is the specification's. -/
theorem ctx_eq (x : Input) (W : Weight) : val_main_v13 (F := Ideal) x W = Gctx x W := by
  funext j
  obtain ⟨b, s, h, rfl⟩ : ∃ (b : Fin 8) (s : Fin 2048) (h : Fin 1024), j = ix3 b s h := ⟨j 0, j 1, j 2, eq_ix3 j⟩
  exact v13_at x W b s h

end Cert.BilinearAttention.Reference

end
-- ==== Proof.lean ====
/-
  The five claims about the bilinear self-attention kernel and its reference.

  Both programs compute, for every batch b, scores s[i, j] = (x[b, i, :] W) . x[b, j, :], the row-wise softmax
  attn = exp(s - max_j s) / sum_j exp(s - max_j s) (the maximum taken as a fold from -inf), and the context
  attn x[b]. The reference does it on whole arrays; the kernel does it one tile of 256 query rows at a time on an
  8 by 8 grid, keeping the weight matrix and the batch's slab of x in two scratch buffers between grid points.
  On the extended reals a change of float format is the identity and the two programs are the same formula term by
  term, so no finiteness of the inputs is used.

  frame_Kernel, frame_KernelIdeal: the kernel program is one pipelined call; its run (every weakly fair execution
  terminates, nothing faults, each windowed array ends at what the write-backs leave) is proved once for any float
  instance in Proof/K and Proof/KI, and an input array is never written back.
  frame_ReferenceIdeal: the reference's straight-line run with the results dropped.
  preserves: the idealized kernel is the kernel's own text read at the extended reals; nothing was rewritten.
  algebraic: the kernel's two result arrays are the context and the attention weights of its arguments
  (Proof/KI/Value), and so are the reference's (Proof/AttnReference).
-/
import proofs.«106206_j36361193128336_2_alg».proof.Defs
import proofs.«106206_j36361193128336_2_alg».proof.Proof.Gen.Kernel
import proofs.«106206_j36361193128336_2_alg».proof.Proof.Gen.KernelIdeal
import proofs.«106206_j36361193128336_2_alg».proof.Proof.Gen.ReferenceIdeal
import proofs.«106206_j36361193128336_2_alg».proof.Proof.Gen.Pre_finite_inputs
import proofs.«106206_j36361193128336_2_alg».proof.Proof.RefFrame
import proofs.«106206_j36361193128336_2_alg».proof.Proof.K.Launch
import proofs.«106206_j36361193128336_2_alg».proof.Proof.KI.Value
import proofs.«106206_j36361193128336_2_alg».proof.Proof.AttnReference
import Idealize.ShloMosaic.Adequacy
import Idealize.ShloMosaic.Init

noncomputable section

namespace Cert.Proof

open Idealize.ShloMosaic Idealize.ShloMosaic.TcCoe Idealize.SL.Sem Cert.BilinearAttention

/-- The word-level kernel runs to the end and leaves its arguments as they were. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The idealization rewrote nothing. -/
theorem preserves : Cert.preserves_Kernel_KernelIdeal := trivial

/-- Both idealized programs end with the context and the attention weights of the (agreeing) arguments. -/
theorem algebraic : Cert.algebraic_KernelIdeal_ReferenceIdeal := by
  intro m ρ m' ρ' _ hagree
  refine ⟨fun c => Gctx (Cert.KernelIdeal.Hand.xArr m c) (Cert.KernelIdeal.Hand.wArr m c),
    fun c => Gattn (Cert.KernelIdeal.Hand.xArr m c) (Cert.KernelIdeal.Hand.wArr m c),
    Cert.KernelIdeal.Hand.run_value m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [(hagree c).1, (hagree c).2]
    exact (Cert.ReferenceIdeal.Read.val_main_v13_eq _ _).trans (Reference.ctx_eq _ _)
  · rw [(hagree c).1, (hagree c).2]
    exact (Cert.ReferenceIdeal.Read.val_main_v12_eq _ _).trans (Reference.attn_eq _ _)

theorem claim : Cert.Claim :=
  ⟨Cert.Kernel.Gen.facts, Cert.KernelIdeal.Gen.facts, Cert.ReferenceIdeal.Gen.facts, Cert.Pre_finite_inputs.Gen.facts,
    frame_k, frame_ki, RefClaims.frame_ri, preserves, algebraic⟩

end Cert.Proof

end
